-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1x512 : Shape := ⟨2, ![1, 512]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x4096, .f32⟩
  | .local _ .vmem, ⟨7, _⟩ => ⟨S512x4096, .f32⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S4096x4096.size a
  hwx1_3 : ∀ i : grid1.Coords, EltTy.bits .f32 = 32 ∨ (Rect.block (s := S4096x4096) S512x4096.size (cc1_transform_3 i) (hinb1_3 i)).WholeWords (EltTy.packing .f32)

variable [Facts₀]

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)

variable [Facts₀]

class Facts : Prop extends Facts₀ where

variable [Facts]
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Spec.lean ====
/-
  The mathematics of the certificate, with no program in sight.

  Three arrays over the extended reals: `X` and `W`, both 4096 × 4096, and `B`, of length 4096. Write
  `rowSum X p` for the sum of row `p` of `X`. The kernel computes, at `(p, q)`,
      rowSum X p · B q  +  rowSum W q · B q,
  the second summand prepared once as a row of length 4096 (`foldedAt`), and the reference computes
      ((0 + rowSum X p) + (0 + rowSum W q)) · B q.
  The two agree by distributivity of the product over the sum. On the extended reals that law fails at infinities
  (a sum `+∞ + −∞` times a negative number), so it is proved here for arrays all of whose entries are real numbers: then
  every row sum is a real number and the law is the one of the real field.
-/
import Idealize.ShloMosaic.PureOps.Ideal
import Idealize.ShloMosaic.Lib.ValueIdx

noncomputable section

open scoped BigOperators

namespace Cert.Spec

open Idealize.ShloMosaic Idealize.ShloMosaic.ValueIdx

/-- A 4096 × 4096 array of extended reals. -/
abbrev Mat : Type := (⟨2, ![4096, 4096]⟩ : Shape).Idx → EReal
/-- An array of 4096 extended reals. -/
abbrev Col : Type := (⟨1, ![4096]⟩ : Shape).Idx → EReal
/-- A 1 × 4096 array of extended reals. -/
abbrev Row : Type := (⟨2, ![1, 4096]⟩ : Shape).Idx → EReal

/-- The sum of row `r`. -/
def rowSum (X : Mat) (r : Fin 4096) : EReal := ∑ k : Fin 4096, X (ix2 r k)

/-- Entry `q` of the prepared row: the sum of row `q` of `W`, times entry `q` of `B`. -/
def foldedAt (W : Mat) (B : Col) (q : Fin 4096) : EReal := rowSum W q * B (ix1 q)

/-- The kernel's result at `(p, q)`. -/
def resultAt (X W : Mat) (B : Col) (p q : Fin 4096) : EReal := rowSum X p * B (ix1 q) + foldedAt W B q

/-- The reference's result at `(p, q)`: each row sum taken from zero, the two added, the sum scaled. -/
def referenceAt (X W : Mat) (B : Col) (p q : Fin 4096) : EReal := ((0 + rowSum X p) + (0 + rowSum W q)) * B (ix1 q)

/-- The prepared row as an array. -/
def folded (W : Mat) (B : Col) : Row := fun j => foldedAt W B ⟨(j 1).val, (j 1).isLt⟩

/-- The result as an array. -/
def result (X W : Mat) (B : Col) : Mat := fun i => resultAt X W B ⟨(i 0).val, (i 0).isLt⟩ ⟨(i 1).val, (i 1).isLt⟩

/-- The reference's result as an array. -/
def reference (X W : Mat) (B : Col) : Mat := fun i => referenceAt X W B ⟨(i 0).val, (i 0).isLt⟩ ⟨(i 1).val, (i 1).isLt⟩

/-- `B` laid out as a 1 × 4096 row. -/
def asRow (B : Col) : Row := fun j => B (ix1 ⟨(j 1).val, (j 1).isLt⟩)

/-- Position `512 n + r` of an axis of 4096 cut into 8 blocks of 512: entry `r` of block `n`. -/
def at512 (n : ℕ) (hn : n < 8) (r : Fin 512) : Fin 4096 := ⟨n * 512 + r.val, by omega⟩

/-- The inclusion of the reals in the extended reals commutes with finite sums. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A row of real numbers has a real sum. -/
theorem rowSum_real (X : Mat) (hX : ∀ i, ∃ r : ℝ, X i = (r : EReal)) (p : Fin 4096) : ∃ r : ℝ, rowSum X p = (r : EReal) := by
  choose f hf using hX
  refine ⟨∑ k : Fin 4096, f (ix2 p k), ?_⟩
  unfold rowSum
  rw [coe_sum]
  exact Finset.sum_congr rfl fun k _ => hf _

/-- DISTRIBUTIVITY, where it holds: on arrays of real numbers the kernel's result is the reference's. -/
theorem resultAt_eq_referenceAt (X W : Mat) (B : Col) (hX : ∀ i, ∃ r : ℝ, X i = (r : EReal))
    (hW : ∀ i, ∃ r : ℝ, W i = (r : EReal)) (hB : ∀ i, ∃ r : ℝ, B i = (r : EReal)) (p q : Fin 4096) :
    resultAt X W B p q = referenceAt X W B p q := by
  obtain ⟨a, ha⟩ := rowSum_real X hX p
  obtain ⟨b, hb⟩ := rowSum_real W hW q
  obtain ⟨c, hc⟩ := hB (ix1 q)
  unfold resultAt referenceAt foldedAt
  rw [ha, hb, hc, zero_add, zero_add, ← EReal.coe_mul, ← EReal.coe_mul, ← EReal.coe_add, ← EReal.coe_add, ← EReal.coe_mul]
  exact congrArg _ (by ring)

/-- The same, array against array. -/
theorem result_eq_reference (X W : Mat) (B : Col) (hX : ∀ i, ∃ r : ℝ, X i = (r : EReal))
    (hW : ∀ i, ∃ r : ℝ, W i = (r : EReal)) (hB : ∀ i, ∃ r : ℝ, B i = (r : EReal)) : result X W B = reference X W B :=
  funext fun _ => resultAt_eq_referenceAt X W B hX hW hB _ _

end Cert.Spec

end
-- ==== Proof.Bodies.lean ====
/-
  What the two kernel bodies compute, read at an index over the extended reals.
  • The first body takes a 512 × 4096 block `x0` of the weight and a 1 × 512 piece `x1` of the bias row: it sums each row of
    the block, lays the 512 sums out as a row, and multiplies by the piece. At `(0, q)`: (the sum of row `q` of `x0`) · `x1 (0, q)`.
  • The second body takes a 512 × 4096 block `x0` of the input, the whole bias row `x1` and the whole prepared row `x2`: it
    sums each row of the block, spreads the sums across the columns, multiplies by the bias row spread down the rows and
    adds the prepared row spread down the rows. At `(p, q)`: (the sum of row `p` of `x0`) · `x1 (0, q)` + `x2 (0, q)`.
-/
import proofs.«110261_j30133490549219_2_alg».proof.Proof.Gen.KernelIdeal.Skeleton
import proofs.«110261_j30133490549219_2_alg».proof.Proof.LibKeepdims
import proofs.«110261_j30133490549219_2_alg».proof.Proof.Spec

noncomputable section

open scoped BigOperators

namespace Cert.KernelIdeal.Bodies

open Cert.KernelIdeal Cert.KernelIdeal.Gen Idealize.ShloMosaic Idealize.ShloMosaic.ValueIdx Cert.Spec

/-- The first body's stored value at `(0, q)`. -/
theorem folded_piece_at (x0 : FVec Ideal S512x4096 .f32) (x1 : FVec Ideal S1x512 .f32) (q : Fin 512) :
    k0_pay1 (F := Ideal) x0 x1 (ix2 (0 : Fin 1) q) = (∑ k : Fin 4096, x0 (ix2 q k)) * x1 (ix2 (0 : Fin 1) q) := by
  unfold k0_pay1
  dsimp only
  rw [mulf_apply, transpose_ix2_apply, shapeCast_a_a1_apply, shapeCast_self]
  exact congrArg (· * x1 (ix2 (0 : Fin 1) q)) (multiReduction_add_axis1_apply x0 reduces_S512x4096_S512 (.inl rfl) rfl q)

/-- The second body's stored value at `(p, q)`. -/
theorem result_block_at (x0 : FVec Ideal S512x4096 .f32) (x1 x2 : FVec Ideal S1x4096 .f32) (p : Fin 512) (q : Fin 4096) :
    k1_pay1 (F := Ideal) x0 x1 x2 (ix2 p q) = (∑ k : Fin 4096, x0 (ix2 p k)) * x1 (ix2 (0 : Fin 1) q) + x2 (ix2 (0 : Fin 1) q) := by
  unfold k1_pay1
  dsimp only
  rw [addf_apply, mulf_apply, broadcastTo_a1_ab_apply, broadcastTo_1b_ab_apply, broadcastTo_1b_ab_apply,
    shapeCast_a_a1_apply, shapeCast_self, shapeCast_self]
  exact congrArg (· * x1 (ix2 (0 : Fin 1) q) + x2 (ix2 (0 : Fin 1) q))
    (multiReduction_add_axis1_apply x0 reduces_S512x4096_S512 (.inl rfl) rfl p)

/-- The first body on block `n`: when `x0` holds rows `512 n …` of `W` and `x1` entries `512 n …` of `B`, its stored value at
    `(0, q)` is entry `512 n + q` of the prepared row. -/
theorem folded_piece_of_blocks (x0 : FVec Ideal S512x4096 .f32) (x1 : FVec Ideal S1x512 .f32) (W : Mat) (B : Col)
    (n : ℕ) (hn : n < 8) (q : Fin 512) (h0 : ∀ k : Fin 4096, x0 (ix2 q k) = W (ix2 (at512 n hn q) k))
    (h1 : x1 (ix2 (0 : Fin 1) q) = B (ix1 (at512 n hn q))) :
    k0_pay1 (F := Ideal) x0 x1 (ix2 (0 : Fin 1) q) = foldedAt W B (at512 n hn q) := by
  rw [folded_piece_at, Finset.sum_congr rfl (fun k _ => h0 k), h1]
  rfl

/-- The second body on block `n`: when `x0` holds rows `512 n …` of `X`, `x1` the bias as a row and `x2` the prepared row, its
    stored value at `(p, q)` is the result at `(512 n + p, q)`. -/
theorem result_block_of_blocks (x0 : FVec Ideal S512x4096 .f32) (x1 x2 : FVec Ideal S1x4096 .f32) (X W : Mat) (B : Col)
    (n : ℕ) (hn : n < 8) (p : Fin 512) (q : Fin 4096) (h0 : ∀ k : Fin 4096, x0 (ix2 p k) = X (ix2 (at512 n hn p) k))
    (h1 : x1 (ix2 (0 : Fin 1) q) = B (ix1 q)) (h2 : x2 (ix2 (0 : Fin 1) q) = foldedAt W B q) :
    k1_pay1 (F := Ideal) x0 x1 x2 (ix2 p q) = resultAt X W B (at512 n hn p) q := by
  rw [result_block_at, Finset.sum_congr rfl (fun k _ => h0 k), h1, h2]
  rfl

end Cert.KernelIdeal.Bodies

end
-- ==== Proof.FoldedRow.lean ====
/-
  THE FIRST REGION. Its grid has eight points; point `t` reads rows `512 t … 512 t + 511` of the weight and entries
  `512 t … 512 t + 511` of the bias row, and writes back entries `512 t … 512 t + 511` of a 1 × 4096 row: each weight row's
  sum times the bias entry of the same number. The eight pieces tile the row, so after the region the row holds, at
  every `q`, the sum of row `q` of the weight times entry `q` of the bias (`Cert.Spec.folded`).
  The bias row the region reads is the bias cast to one row by the host operation before it; the weight is as launched.
-/
import proofs.«110261_j30133490549219_2_alg».proof.Proof.Gen.KernelIdeal.Frame
import proofs.«110261_j30133490549219_2_alg».proof.Proof.Bodies
import proofs.«110261_j30133490549219_2_alg».proof.Proof.Spec
import Idealize.ShloMosaic.Lib.Pipeline.Value
import Idealize.ShloMosaic.Lib.ValueLayout
import Idealize.ShloMosaic.Lib.StableHlo.Run

noncomputable section

open scoped BigOperators

namespace Cert.KernelIdeal.FoldedRow

open Cert.KernelIdeal Cert.KernelIdeal.Gen Cert.KernelIdeal.Bodies Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays of core `c` at launch. -/
abbrev input (c : Dev nD) : Mat := m ((c.tc : Thread nD τ).loc main_arg0)
abbrev weight (c : Dev nD) : Mat := m ((c.tc : Thread nD τ).loc main_arg1)
abbrev bias (c : Dev nD) : Col := m ((c.tc : Thread nD τ).loc main_arg2)

theorem hz : (![0, 0] : Fin 2 → Nat) = fun _ => 0 := funext fun a => by fin_cases a <;> rfl

/-- The grid has eight points. -/
theorem point_lt (t : Fin cfg0.N) : t.val < 8 := by
  have h := t.isLt
  have hN : cfg0.N = 8 := N_0
  omega

/-! ## The arrays as the region finds them -/

/-- The weight, as launched: the host operation before the region does not write it. -/
theorem entry_weight (c : Dev nD) : (V1 m ρ c main_arg1 : S4096x4096.Idx → EReal) = weight m c := by
  show StableHlo.after hostOps0 (W0 m ρ c) (Proc.devRef .tc main_arg1) = _
  after_results

/-- The bias row: the bias, laid out as one row by the host operation before the region. -/
theorem entry_bias_row (c : Dev nD) : (V1 m ρ c main_v0 : S1x4096.Idx → EReal) = asRow (bias m c) := by
  have e : (V1 m ρ c main_v0 : S1x4096.Idx → EReal) = shapeCast S1x4096 (bias m c) shapeCasts_S4096_S1x4096 := by
    show StableHlo.after hostOps0 (W0 m ρ c) (Proc.devRef .tc main_v0) = _
    after_results
    rfl
  rw [e]
  funext j
  obtain ⟨u, q, rfl⟩ : ∃ (u : Fin 1) (q : Fin 4096), j = ix2 u q := ⟨j 0, j 1, eq_ix2 j⟩
  exact shapeCast_a_1a_apply _ _ u q

/-! ## The blocks -/

/-- The printed index maps over the grid: point `t` takes block row `t` of the weight and block column `t` of both rows. -/
theorem block_indices : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Point `t`'s weight block, at `(r, k)`, is the weight at `(512 t + r, k)`. -/
theorem weight_block_at (c : Dev nD) (t : Fin cfg0.N) (r : Fin 512) (k : Fin 4096) :
    (iblk0 (V1 m ρ) c 0 t : S512x4096.Idx → EReal) (ix2 r k) = weight m c (ix2 (at512 t.val (point_lt t) r) k) := by
  obtain ⟨e0, e1, -⟩ := block_indices t
  show V1 m ρ c main_arg1 (((cfg0.win 0).blk t).view.emb (ix2 r k)) = _
  rw [entry_weight]
  refine congrArg (weight m c) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

/-- Point `t`'s piece of the bias row, at `(0, q)`, is the bias at `512 t + q`. -/
theorem bias_block_at (c : Dev nD) (t : Fin cfg0.N) (u : Fin 1) (q : Fin 512) :
    (iblk0 (V1 m ρ) c 1 t : S1x512.Idx → EReal) (ix2 u q) = bias m c (ix1 (at512 t.val (point_lt t) q)) := by
  obtain ⟨-, -, -, e3, -⟩ := block_indices t
  show V1 m ρ c main_v0 (((cfg0.win 1).blk t).view.emb (ix2 u q)) = _
  rw [entry_bias_row]
  refine congrArg (fun z => bias m c (ix1 z)) (Fin.ext ?_)
  show win0_1.index t (1 : Fin 2) * 512 + 1 * q.val = t.val * 512 + q.val
  rw [e3]; omega

/-! ## What a point writes back -/

/-- The body's stored value at point `t`, at a position of its 1 × 512 piece, is the prepared row at that position of the array. -/
theorem piece_at (c : Dev nD) (t : Fin cfg0.N) (j : S1x512.Idx) :
    k0_pay1 (F := Ideal) (iblk0 (V1 m ρ) c 0 t) (iblk0 (V1 m ρ) c 1 t) j
      = folded (weight m c) (bias m c) (((cfg0.win 2).blk t).view.emb j) := by
  obtain ⟨-, -, -, -, -, e5⟩ := block_indices t
  obtain ⟨u, q, rfl⟩ : ∃ (u : Fin 1) (q : Fin 512), j = ix2 u q := ⟨j 0, j 1, eq_ix2 j⟩
  obtain rfl : u = 0 := Fin.ext (by omega)
  refine (folded_piece_of_blocks (iblk0 (V1 m ρ) c 0 t) (iblk0 (V1 m ρ) c 1 t) (weight m c) (bias m c) t.val (point_lt t) q
    (fun k => weight_block_at m ρ c t q k) (bias_block_at m ρ c t 0 q)).trans ?_
  show foldedAt (weight m c) (bias m c) (at512 t.val (point_lt t) q) = foldedAt (weight m c) (bias m c) _
  refine congrArg (foldedAt (weight m c) (bias m c)) (Fin.ext ?_)
  show t.val * 512 + q.val = win0_2.index t (1 : Fin 2) * 512 + 1 * q.val
  rw [e5]; omega

/-- WHAT POINT `t` WRITES BACK is block `t` of the prepared row. -/
theorem flushed_eq (c : Dev nD) (t : Fin cfg0.N) :
    (dat0 (V1 m ρ) c).flushed 2 t = ((cfg0.win 2).blk t).view.read (Elt Ideal) (folded (weight m c) (bias m c)) := by
  show (cfg0.win 2).cut (grid0.coords t) ((dat0 (V1 m ρ) c).after 2 t) = _
  rw [after0_2]
  unfold out0_2
  rw [View.canon_unit_zero hz]
  simp only [View.ld_unit_zero (S := S512x4096) hz, View.ld_unit_zero (S := S1x512) hz]
  funext j
  exact piece_at m ρ c t j

/-! ## The pieces tile the row -/

/-- An index of the row is in point `t`'s block iff each coordinate is in the block's range on its axis. -/
theorem mem_blk (t : Fin cfg0.N) (i : S1x4096.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v1).slice (win0_2.rect t)).set ↔ _
  rw [View.set_slice_whole, Rect.mem_set_unit]
  exact Iff.rfl

/-- Every position `q` of the row is in the block of point `q / 512`. -/
theorem cover (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  have hN : cfg0.N = 8 := N_0
  obtain ⟨t, ht⟩ : ∃ t : Fin cfg0.N, t.val = (i 1).val / 512 := ⟨⟨(i 1).val / 512, by rw [hN]; omega⟩, rfl⟩
  obtain ⟨-, -, -, -, e4, e5⟩ := block_indices t
  refine ⟨t, flush0_2 t, ?_⟩
  rw [mem_blk]
  intro a
  match a with
  | ⟨0, _⟩ =>
    show win0_2.index t (0 : Fin 2) * 1 ≤ (i 0).val ∧ (i 0).val < win0_2.index t (0 : Fin 2) * 1 + 1
    rw [e4]; omega
  | ⟨1, _⟩ =>
    show win0_2.index t (1 : Fin 2) * 512 ≤ (i 1).val ∧ (i 1).val < win0_2.index t (1 : Fin 2) * 512 + 512
    rw [e5, ht]; omega

/-! ## The row after the region -/

/-- THE PREPARED ROW: after the first region its output array holds, at every `q`, the sum of row `q` of the weight times
    entry `q` of the bias. -/
theorem prepared_row (c : Dev nD) : (dat0 (V1 m ρ) c).arrAt 2 cfg0.N = folded (weight m c) (bias m c) :=
  (dat0 (V1 m ρ) c).arrAt_eq_of_cover 2 (folded (weight m c) (bias m c)) (fun t _ => flushed_eq m ρ c t) cover

end Cert.KernelIdeal.FoldedRow

end
-- ==== Proof.Boundary.lean ====
/-
  The idealized kernel program runs two pipelined regions one after the other. This module states its run with the
  RESULT array named: every weakly fair execution of the whole program terminates, nothing faulting, and ends with the
  result array at the contents the second region's write-backs leave (the last boundary's contents, a fold of the two
  regions' write-backs over the launch memory) and the three argument arrays as launched. The later modules compute
  that fold: the first region's row (each weight row's sum times its bias entry) and then the result itself.
-/
import proofs.«110261_j30133490549219_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program's run, the result array read at the last boundary: after both regions the result buffer holds
    what the second region's pipeline leaves in its output array, and no argument array has changed. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Boundary

end
-- ==== Proof.Result.lean ====
/-
  THE SECOND REGION, and the program's result. Its grid has eight points; point `t` reads rows `512 t … 512 t + 511` of the
  input, the whole bias row and the whole prepared row, and writes back rows `512 t … 512 t + 511` of the result: at `(p, q)`
  the sum of row `p` of the input times bias entry `q`, plus entry `q` of the prepared row. The eight blocks of rows tile
  the result, so after the region the result array holds `Cert.Spec.result` of the three arguments.
  The region finds the input as launched (nothing before it writes it), the bias row as the first region found it (the
  first region only reads it) and the prepared row as the first region's write-backs left it.
-/
import proofs.«110261_j30133490549219_2_alg».proof.Proof.FoldedRow
import proofs.«110261_j30133490549219_2_alg».proof.Proof.Boundary

noncomputable section

open scoped BigOperators

namespace Cert.KernelIdeal.Result

open Cert.KernelIdeal Cert.KernelIdeal.Gen Cert.KernelIdeal.Bodies Cert.KernelIdeal.FoldedRow Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The grid has eight points. -/
theorem point_lt (t : Fin cfg1.N) : t.val < 8 := by
  have h := t.isLt
  have hN : cfg1.N = 8 := N_1
  omega

/-! ## The arrays as the region finds them -/

/-- The input, as launched: neither the host operation nor the first region writes it. -/
theorem entry_input (c : Dev nD) : (V2 m ρ c main_arg0 : S4096x4096.Idx → EReal) = input m c := by
  refine (W2_of_ne m ρ c main_arg0 (by decide)).trans ?_
  show StableHlo.after hostOps0 (W0 m ρ c) (Proc.devRef .tc main_arg0) = _
  after_results

/-- The bias row: the first region reads it and leaves it as it found it. -/
theorem entry_bias_row (c : Dev nD) : (V2 m ρ c main_v0 : S1x4096.Idx → EReal) = asRow (bias m c) :=
  ((W2_arr m ρ c 1).trans (((dat0 (V1 m ρ) c).arrAt_in 1 rfl _).trans (A_eq0 (V1 m ρ) c 1))).trans
    (FoldedRow.entry_bias_row m ρ c)

/-- The prepared row: what the first region's write-backs left. -/
theorem entry_prepared (c : Dev nD) : (V2 m ρ c main_v1 : S1x4096.Idx → EReal) = folded (weight m c) (bias m c) :=
  (W2_arr m ρ c 2).trans (prepared_row m ρ c)

/-! ## The blocks -/

/-- The printed index maps over the grid: point `t` takes block row `t` of the input and of the result, and the two rows whole. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t`'s input block, at `(r, k)`, is the input at `(512 t + r, k)`. -/
theorem input_block_at (c : Dev nD) (t : Fin cfg1.N) (r : Fin 512) (k : Fin 4096) :
    (iblk1 (V2 m ρ) c 0 t : S512x4096.Idx → EReal) (ix2 r k) = input m c (ix2 (at512 t.val (point_lt t) r) k) := by
  obtain ⟨e0, e1, -⟩ := block_indices t
  show V2 m ρ c main_arg0 (((cfg1.win 0).blk t).view.emb (ix2 r k)) = _
  rw [entry_input]
  refine congrArg (input m c) (funext fun a => Fin.ext ?_)
  match a with
  | ⟨0, _⟩ => show win1_0.index t (0 : Fin 2) * 512 + 1 * r.val = t.val * 512 + r.val; rw [e0]; omega
  | ⟨1, _⟩ => show win1_0.index t (1 : Fin 2) * 4096 + 1 * k.val = k.val; rw [e1]; omega

/-- The bias row as every point reads it, at `(0, q)`: the bias at `q`. -/
theorem bias_row_at (c : Dev nD) (t : Fin cfg1.N) (u : Fin 1) (q : Fin 4096) :
    (iblk1 (V2 m ρ) c 1 t : S1x4096.Idx → EReal) (ix2 u q) = bias m c (ix1 q) := by
  obtain ⟨-, -, -, e3, -⟩ := block_indices t
  show V2 m ρ c main_v0 (((cfg1.win 1).blk t).view.emb (ix2 u q)) = _
  rw [entry_bias_row]
  refine congrArg (fun z => bias m c (ix1 z)) (Fin.ext ?_)
  show win1_1.index t (1 : Fin 2) * 4096 + 1 * q.val = q.val
  rw [e3]; omega

/-- The prepared row as every point reads it, at `(0, q)`: its entry `q`. -/
theorem prepared_at (c : Dev nD) (t : Fin cfg1.N) (u : Fin 1) (q : Fin 4096) :
    (iblk1 (V2 m ρ) c 2 t : S1x4096.Idx → EReal) (ix2 u q) = foldedAt (weight m c) (bias m c) q := by
  obtain ⟨-, -, -, -, -, e5, -⟩ := block_indices t
  show V2 m ρ c main_v1 (((cfg1.win 2).blk t).view.emb (ix2 u q)) = _
  rw [entry_prepared]
  refine congrArg (foldedAt (weight m c) (bias m c)) (Fin.ext ?_)
  show win1_2.index t (1 : Fin 2) * 4096 + 1 * q.val = q.val
  rw [e5]; omega

/-! ## What a point writes back -/

/-- The body's stored value at point `t`, at a position of its 512 × 4096 block, is the result at that position of the array. -/
theorem piece_at (c : Dev nD) (t : Fin cfg1.N) (j : S512x4096.Idx) :
    k1_pay1 (F := Ideal) (iblk1 (V2 m ρ) c 0 t) (iblk1 (V2 m ρ) c 1 t) (iblk1 (V2 m ρ) c 2 t) j
      = result (input m c) (weight m c) (bias m c) (((cfg1.win 3).blk t).view.emb j) := by
  obtain ⟨-, -, -, -, -, -, e6, e7⟩ := block_indices t
  obtain ⟨p, q, rfl⟩ : ∃ (p : Fin 512) (q : Fin 4096), j = ix2 p q := ⟨j 0, j 1, eq_ix2 j⟩
  refine (result_block_of_blocks (iblk1 (V2 m ρ) c 0 t) (iblk1 (V2 m ρ) c 1 t) (iblk1 (V2 m ρ) c 2 t)
    (input m c) (weight m c) (bias m c) t.val (point_lt t) p q
    (fun k => input_block_at m ρ c t p k) (bias_row_at m ρ c t 0 q) (prepared_at m ρ c t 0 q)).trans ?_
  show resultAt (input m c) (weight m c) (bias m c) (at512 t.val (point_lt t) p) q = resultAt (input m c) (weight m c) (bias m c) _ _
  refine congrArg₂ (resultAt (input m c) (weight m c) (bias m c)) (Fin.ext ?_) (Fin.ext ?_)
  · show t.val * 512 + p.val = win1_3.index t (0 : Fin 2) * 512 + 1 * p.val
    rw [e6]; omega
  · show q.val = win1_3.index t (1 : Fin 2) * 4096 + 1 * q.val
    rw [e7]; omega

/-- WHAT POINT `t` WRITES BACK is block `t` of the result. -/
theorem flushed_eq (c : Dev nD) (t : Fin cfg1.N) :
    (dat1 (V2 m ρ) c).flushed 3 t
      = ((cfg1.win 3).blk t).view.read (Elt Ideal) (result (input m c) (weight m c) (bias m c)) := by
  show (cfg1.win 3).cut (grid1.coords t) ((dat1 (V2 m ρ) c).after 3 t) = _
  rw [after1_3]
  unfold out1_3
  rw [View.canon_unit_zero hz]
  simp only [View.ld_unit_zero (S := S512x4096) hz, View.ld_unit_zero (S := S1x4096) hz]
  funext j
  exact piece_at m ρ c t j

/-! ## The blocks of rows tile the result -/

/-- An index of the result is in point `t`'s block iff each coordinate is in the block's range on its axis. -/
theorem mem_blk (t : Fin cfg1.N) (i : S4096x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v2).slice (win1_3.rect t)).set ↔ _
  rw [View.set_slice_whole, Rect.mem_set_unit]
  exact Iff.rfl

/-- Every position `(p, q)` of the result is in the block of point `p / 512`. -/
theorem cover (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, -, -, e6, e7⟩ := block_indices t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    rw [e6, ht]; omega
  | ⟨1, _⟩ =>
    show win1_3.index t (1 : Fin 2) * 4096 ≤ (i 1).val ∧ (i 1).val < win1_3.index t (1 : Fin 2) * 4096 + 4096
    rw [e7]; omega

/-! ## The result after the region, and the program's run -/

/-- THE RESULT ARRAY after the second region: at `(p, q)`, row `p` of the input summed, times bias entry `q`, plus row `q` of
    the weight summed, times bias entry `q`. -/
theorem result_array (c : Dev nD) :
    (dat1 (V2 m ρ) c).arrAt 3 cfg1.N = result (input m c) (weight m c) (bias m c) :=
  (dat1 (V2 m ρ) c).arrAt_eq_of_cover 3 (result (input m c) (weight m c) (bias m c)) (fun t _ => flushed_eq m ρ c t) cover

/-- The last boundary's contents at the result buffer. -/
theorem last_boundary (c : Dev nD) :
    (W3 m ρ c (Proc.devRef .tc main_v2) : S4096x4096.Idx → EReal) = result (input m c) (weight m c) (bias m c) :=
  (W3_arr m ρ c 3).trans (result_array m ρ c)

/-- THE RUN of the idealized kernel program: it terminates, nothing faulting, with the result array at
    `Cert.Spec.result` of the three argument arrays and those arrays unchanged. -/
theorem run : θ_run defs (onTc (τ := τ) (main (F := Ideal))) ⟨m, fun _ => 0, ρ⟩ (fun r => ∀ c : Dev nD,
      r.2.mem ((c.tc : Thread nD τ).loc main_v2) = result (input m c) (weight m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (last_boundary m ρ c), (h c).2⟩)
    (Boundary.run_result m ρ)

end Cert.KernelIdeal.Result

end
-- ==== Proof.Reference.lean ====
/-
  The reference program's result, read index by index, is the specification's `reference`: at `(p, q)` the sum of row `p`
  of the first argument taken from zero, plus the sum of row `q` of the second taken from zero, the whole times entry
  `q` of the third. Each of the reference's operations is read at an index by its generated lemma; what is written here is
  that the composed index functions name row `p`, row `q` and entry `q`.
-/
import proofs.«110261_j30133490549219_2_alg».proof.Proof.Gen.ReferenceIdeal.Read
import proofs.«110261_j30133490549219_2_alg».proof.Proof.Spec

noncomputable section

open scoped BigOperators

namespace Cert.ReferenceIdeal.IsSpec

open Cert.ReferenceIdeal Cert.ReferenceIdeal.Read Idealize.ShloMosaic Idealize.ShloMosaic.ValueIdx Cert.Spec

/-- The reference's last stage at `(p, q)`. -/
theorem stage_at (x0 x1 : Mat) (x2 : Col) (p q : Fin 4096) :
    val_main_v9 (F := Ideal) x0 x1 x2 (ix2 p q) = referenceAt x0 x1 x2 p q := by
  have e0 : ∀ k, idx_main_v0 (idx_main_v1 (idx_main_v4 (ix2 p q))) k = ix2 p k := fun k =>
    funext fun a => Fin.ext (by match a with | ⟨0, _⟩ => rfl | ⟨1, _⟩ => rfl)
  have e1 : ∀ k, idx_main_v2 (idx_main_v3 (idx_main_v5 (ix2 p q))) k = ix2 q k := fun k =>
    funext fun a => Fin.ext (by match a with | ⟨0, _⟩ => rfl | ⟨1, _⟩ => rfl)
  have e2 : idx_main_v7 (idx_main_v8 (ix2 p q)) = ix1 q :=
    funext fun a => Fin.ext (by match a with | ⟨0, _⟩ => rfl)
  rw [val_main_v9_apply, val_main_v6_apply, val_main_v4_apply, val_main_v1_apply, val_main_v0_apply,
    val_main_v5_apply, val_main_v3_apply, val_main_v2_apply, val_main_v8_apply, val_main_v7_apply]
  simp only [e0, e1, e2, val_main_cst_apply, val_main_cst_0_apply, Ideal.ofBits_def, Ideal.ofBits_zero_f32,
    Ideal.addf_def, Ideal.mulf_def]
  rfl

/-- The reference's last stage is the specification's array. -/
theorem stage_eq (x0 x1 : Mat) (x2 : Col) : val_main_v9 (F := Ideal) x0 x1 x2 = reference x0 x1 x2 := by
  funext i
  obtain ⟨p, q, rfl⟩ : ∃ (p q : Fin 4096), i = ix2 p q :=
    ⟨⟨(i 0).val, (i 0).isLt⟩, ⟨(i 1).val, (i 1).isLt⟩, funext fun a => by match a with | ⟨0, _⟩ => rfl | ⟨1, _⟩ => rfl⟩
  exact stage_at x0 x1 x2 p q

end Cert.ReferenceIdeal.IsSpec

end
-- ==== Proof.Reals.lean ====
/-
  FINITENESS. The precondition says of each of the three argument arrays that every entry has absolute value below `+∞`.
  Over the extended reals that means: every entry is a real number. The precondition is a conjunction of three `all`s, each
  a reduction by `and` of an array of comparisons; it is taken apart here, and an extended real `x` with `max x (−x) < +∞` is
  neither infinity.
-/
import proofs.«110261_j30133490549219_2_alg».proof.Defs
import proofs.«110261_j30133490549219_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Reals

open Cert.KernelIdeal Idealize.ShloMosaic Idealize.ShloMosaic.TcCoe Idealize.ShloMosaic.ValueIdx Idealize.SL.Sem

/-- The scalar shape has one index. -/
instance : Subsingleton Cert.Pre_finite_inputs.S_.Idx := ⟨fun a b => funext fun d => d.elim0⟩

/-- An extended real whose absolute value is below `+∞` (the f32 word `0x7F800000`) is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three argument arrays is a real number. -/
theorem of_pre (m : (ℓ : Loc nD τ sig) → Buf (Elt Ideal) ℓ) (h : Cert.Pre_KernelIdeal m) (c : Dev nD) :
    (∀ i : S4096x4096.Idx, ∃ r : ℝ, (m ((c.tc : Thread nD τ).loc main_arg0) : S4096x4096.Idx → EReal) i = (r : EReal))
    ∧ (∀ i : S4096x4096.Idx, ∃ r : ℝ, (m ((c.tc : Thread nD τ).loc main_arg1) : S4096x4096.Idx → EReal) i = (r : EReal))
    ∧ (∀ i : S4096.Idx, ∃ r : ℝ, (m ((c.tc : Thread nD τ).loc main_arg2) : S4096.Idx → EReal) i = (r : EReal)) := by
  have h0 := congrFun (h c) ix0
  dsimp only [Cert.Pre_finite_inputs.fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt_top _ (Host.reduce_andi_all _ _ _ _ _ h0' i)
  · exact real_of_abs_lt_top _ (Host.reduce_andi_all _ _ _ _ _ h1 i)
  · exact real_of_abs_lt_top _ (Host.reduce_andi_all _ _ _ _ _ h2 i)

end Cert.KernelIdeal.Reals

end
-- ==== Proof.lean ====
/-
  The kernel computes  out[b, o] = (Σᵢ input[b, i]) · bias[o] + (Σᵢ weight[o, i]) · bias[o]  in two pipelined passes: the
  first prepares the row  o ↦ (Σᵢ weight[o, i]) · bias[o]  block by block, the second sums each input row and combines it
  with the bias row and the prepared row. The reference computes  out[b, o] = (Σᵢ input[b, i] + Σᵢ weight[o, i]) · bias[o].
  Over the extended reals the two are equal by distributivity, which needs every row sum and every bias entry to be a
  real number: that is what the precondition (every input finite) gives.

  The modules: Spec (the two formulas and the law, over arrays of real numbers), Reference (the reference program's
  result is the second formula), Bodies (each kernel body's stored value at an index), Boundary (the whole program's run
  with the result array named), FoldedRow (the first pass's row), Result (the second pass's array and the run), Reals (the
  precondition makes every entry a real number). Here they are assembled: the three frames, the idealization's empty
  ledger, and the equality of the two programs' results.
-/
import proofs.«110261_j30133490549219_2_alg».proof.Defs
import proofs.«110261_j30133490549219_2_alg».proof.Proof.Gen.Kernel
import proofs.«110261_j30133490549219_2_alg».proof.Proof.Gen.Kernel.Frame
import proofs.«110261_j30133490549219_2_alg».proof.Proof.Gen.KernelIdeal
import proofs.«110261_j30133490549219_2_alg».proof.Proof.Gen.KernelIdeal.Frame
import proofs.«110261_j30133490549219_2_alg».proof.Proof.Gen.ReferenceIdeal
import proofs.«110261_j30133490549219_2_alg».proof.Proof.Gen.Pre_finite_inputs
import proofs.«110261_j30133490549219_2_alg».proof.Proof.Gen.ReferenceIdeal.Run
import proofs.«110261_j30133490549219_2_alg».proof.Proof.Gen.ReferenceIdeal.Read
import proofs.«110261_j30133490549219_2_alg».proof.Proof.Result
import proofs.«110261_j30133490549219_2_alg».proof.Proof.Reference
import proofs.«110261_j30133490549219_2_alg».proof.Proof.Reals
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, all finite, the idealized kernel ends with its result array at
    `(Σ input row) · bias + (Σ weight row) · bias` and the reference with its own at `(Σ input row + Σ weight row) · bias`:
    equal, every quantity being a real number. -/
theorem algebraic : Cert.algebraic_KernelIdeal_ReferenceIdeal := by
  intro m ρ m' ρ' hpre hagree
  refine ⟨fun c => Cert.Spec.result (Cert.KernelIdeal.FoldedRow.input m c) (Cert.KernelIdeal.FoldedRow.weight m c)
    (Cert.KernelIdeal.FoldedRow.bias m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hB⟩ := Cert.KernelIdeal.Reals.of_pre m hpre c
  rw [Cert.ReferenceIdeal.Read.val_main_v9_eq, Cert.ReferenceIdeal.IsSpec.stage_eq, (hagree c).1, (hagree c).2.1,
    (hagree c).2.2]
  exact (Cert.Spec.result_eq_reference _ _ _ hX hW hB).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
